-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 69
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S1x128, .f32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S1x128, .f32⟩
  | .hbm, ⟨68, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program run from launch to return, with its result read.

  The program is five stretches of host operations, the first dense layer's launch, one more stretch and the second
  layer's launch.  Every weakly fair execution ends with each unscoped buffer at the contents the last boundary of that
  chain gives it: the result buffer holds what the second launch's write-backs leave in its output array, and the seven
  argument arrays are as launched.
-/
import proofs.«120196_j48266842472902_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates without a fault; its result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Layer.lean ====
/-
  A two-layer graph convolution with symmetric degree normalisation, written once over whole arrays.

  For a graph on 100000 nodes with 1600000 edges `src e → dst e`, the out-degree of a node counts the edges leaving it and
  the in-degree the edges entering it, each clamped below by 1; `degNorm` of an index vector is that clamped count raised
  to the power -1/2.  One layer scales the rows of `H` by the source norm, sums over every edge the source row into the
  destination row (`aggregate`), scales row `p` by the destination norm, multiplies by a 128 × 128 weight matrix and adds
  a bias row (`dense`).  The network is two such layers with `max(·, 0)` between them.

  `denseEntry` is one entry of the dense part: the sum over `k` of `A (p, k) · d p · W (k, q)`, plus `b q`.  The lemmas below
  read both spellings of the dense part at an index: the whole-array one through a matrix product without accumulator and
  two-step broadcasts, and the blockwise one through a product into a zero accumulator on operands whose format change is
  the identity on extended reals, a column and a row given as `[m, 1]` and `[1, 128]` arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«120196_j48266842472902_1_alg».proof.Proof.LibHostProduct
import proofs.«120196_j48266842472902_1_alg».proof.Proof.LibHostBroadcast
import proofs.«120196_j48266842472902_1_alg».proof.Proof.LibPlainProduct
import proofs.«120196_j48266842472902_1_alg».proof.Proof.LibBroadcast
import proofs.«120196_j48266842472902_1_alg».proof.Proof.LibRowsProduct

noncomputable section

namespace Cert.GraphConv

open Idealize.ShloMosaic Idealize.ShloMosaic.ValueIdx

abbrev S0 : Shape := ⟨0, ![]⟩
abbrev SN : Shape := ⟨1, ![100000]⟩
abbrev SE : Shape := ⟨1, ![1600000]⟩
abbrev SD : Shape := ⟨1, ![128]⟩
abbrev SEx1 : Shape := ⟨2, ![1600000, 1]⟩
abbrev SNx1 : Shape := ⟨2, ![100000, 1]⟩
abbrev S1xD : Shape := ⟨2, ![1, 128]⟩
abbrev SNxD : Shape := ⟨2, ![100000, 128]⟩
abbrev SExD : Shape := ⟨2, ![1600000, 128]⟩
abbrev SDxD : Shape := ⟨2, ![128, 128]⟩

theorem bc_S0_SE : S0.BroadcastsInDim SE (![] : Fin 0 → Fin SE.rank) := by decide
theorem bc_S0_SN : S0.BroadcastsInDim SN (![] : Fin 0 → Fin SN.rank) := by decide
theorem bc_S0_SNxD : S0.BroadcastsInDim SNxD (![] : Fin 0 → Fin SNxD.rank) := by decide
theorem bc_SE_SEx1 : SE.BroadcastsInDim SEx1 (![0] : Fin 1 → Fin SEx1.rank) := by decide
theorem bc_SN_SNx1 : SN.BroadcastsInDim SNx1 (![0] : Fin 1 → Fin SNx1.rank) := by decide
theorem bc_SNx1_SNxD : SNx1.BroadcastsInDim SNxD (![0, 1] : Fin 2 → Fin SNxD.rank) := by decide
theorem bc_SD_S1xD : SD.BroadcastsInDim S1xD (![1] : Fin 1 → Fin S1xD.rank) := by decide
theorem bc_S1xD_SNxD : S1xD.BroadcastsInDim SNxD (![0, 1] : Fin 2 → Fin SNxD.rank) := by decide

/-- Adding a length-E vector of updates into a length-N vector at the places an [E, 1] index column names. -/
def countDims : ScatterDims SN SEx1 SE where
  updateWindowDims := []
  insertedWindowDims := [0]
  scatterDimsToOperandDims := [0]
  indexVectorDim := 1
  wf := by decide
/-- Taking whole rows of an [N, 128] table by an [E, 1] index column. -/
def rowsOut : GatherDims SNxD SEx1 SExD where
  offsetDims := [1]
  collapsedSliceDims := [0]
  operandBatchingDims := []
  startIndicesBatchingDims := []
  startIndexMap := [0]
  indexVectorDim := 1
  sliceSizes := ![1, 128]
  wf := by decide
/-- Adding whole rows of an [E, 128] array into an [N, 128] table by an [E, 1] index column. -/
def rowsIn : ScatterDims SNxD SEx1 SExD where
  updateWindowDims := [1]
  insertedWindowDims := [0]
  scatterDimsToOperandDims := [0]
  indexVectorDim := 1
  wf := by decide
theorem product_wf : DotDims.WF SNxD SDxD SNxD [1] [0] [0] [1] [] [] := by decide
/-- The plain product [N, 128] · [128, 128]. -/
def product : DotDims SNxD SDxD SNxD where
  lhsContracting := [1]
  rhsContracting := [0]
  lhsNonContracting := [0]
  rhsNonContracting := [1]
  lhsBatch := []
  rhsBatch := []
  wf := product_wf

section Whole

variable {F : FTy → Type} [FloatOps F]

/-- The clamped degree of every node to the power -1/2: the count of the edges whose index is the node, at least 1. -/
def degNorm (idx : IVec SE 32) : FVec F SN .f32 :=
  Host.powf (maximumf (broadcastInDim SN ![] bc_S0_SN (id (constant S0 .f32 0x3F800000#32)))
      (Host.scatterAdd countDims (broadcastInDim SN ![] bc_S0_SN (constant S0 .f32 0x00000000#32))
        (broadcastInDim SEx1 ![0] bc_SE_SEx1 idx) (broadcastInDim SE ![] bc_S0_SE (constant S0 .f32 0x3F800000#32))))
    (broadcastInDim SN ![] bc_S0_SN (constant S0 .f32 0xBF000000#32))

/-- Row `n` of the result is the sum, over the edges entering `n`, of the source's row of `H` scaled by the source's norm
    (a negative source index counts from the end). -/
def aggregate (H : FVec F SNxD .f32) (ns : FVec F SN .f32) (src dst : IVec SE 32) : FVec F SNxD .f32 :=
  Host.scatterAdd rowsIn (broadcastInDim SNxD ![] bc_S0_SNxD (constant S0 .f32 0x00000000#32))
    (broadcastInDim SEx1 ![0] bc_SE_SEx1 dst)
    (Host.gather rowsOut (mulf H (broadcastInDim SNxD ![0, 1] bc_SNx1_SNxD (broadcastInDim SNx1 ![0] bc_SN_SNx1 ns)))
      (broadcastInDim SEx1 ![0] bc_SE_SEx1
        (select (cmpi .slt src (broadcastInDim SE ![] bc_S0_SE (constantI S0 32 0#32)))
          (addi src (broadcastInDim SE ![] bc_S0_SE (constantI S0 32 100000#32))) src)))

/-- Rows scaled by the destination norm, times the weights, plus the bias on every row. -/
def dense (A : FVec F SNxD .f32) (nd : FVec F SN .f32) (W : FVec F SDxD .f32) (b : FVec F SD .f32) : FVec F SNxD .f32 :=
  addf (Host.dotGeneral product none
      (mulf A (broadcastInDim SNxD ![0, 1] bc_SNx1_SNxD (broadcastInDim SNx1 ![0] bc_SN_SNx1 nd))) W)
    (broadcastInDim SNxD ![0, 1] bc_S1xD_SNxD (broadcastInDim S1xD ![1] bc_SD_S1xD b))

/-- The entrywise maximum with zero. -/
def relu (X : FVec F SNxD .f32) : FVec F SNxD .f32 :=
  maximumf X (broadcastInDim SNxD ![] bc_S0_SNxD (constant S0 .f32 0x00000000#32))

/-- Both layers. -/
def network (feat : FVec F SNxD .f32) (W1 : FVec F SDxD .f32) (b1 : FVec F SD .f32) (W2 : FVec F SDxD .f32)
    (b2 : FVec F SD .f32) (src dst : IVec SE 32) : FVec F SNxD .f32 :=
  dense (aggregate (relu (dense (aggregate feat (degNorm src) src dst) (degNorm dst) W1 b1)) (degNorm src) src dst)
    (degNorm dst) W2 b2

end Whole

/-- Entry `(p, q)` of the dense part: rows of `A` scaled by the column `d`, times `W`, plus the row `b`. -/
def denseEntry {m : ℕ} (A : FVec Ideal ⟨2, ![m, 128]⟩ .f32) (d : FVec Ideal ⟨2, ![m, 1]⟩ .f32) (W : FVec Ideal SDxD .f32)
    (b : FVec Ideal S1xD .f32) (p : Fin m) (q : Fin 128) : Ideal .f32 :=
  (∑ k : Fin 128, A (ix2 p k) * d (ix2 p (0 : Fin 1)) * W (ix2 k q)) + b (ix2 (0 : Fin 1) q)

/-- The whole-array dense part at `(p, q)`, with the norm and the bias re-laid as a column and a row. -/
theorem dense_apply (A : FVec Ideal SNxD .f32) (nd : FVec Ideal SN .f32) (W : FVec Ideal SDxD .f32) (b : FVec Ideal SD .f32)
    (hc : SN.ShapeCasts SNx1) (hr : SD.ShapeCasts S1xD) (p : Fin 100000) (q : Fin 128) :
    dense A nd W b (ix2 p q) = denseEntry A (shapeCast SNx1 nd hc) W (shapeCast S1xD b hr) p q := by
  unfold dense denseEntry
  rw [addf_apply]
  refine congrArg₂ (· + ·) ?_ ?_
  · refine (Cert.HostProduct.dotGeneral_nn_apply product_wf none _ W p q).trans ?_
    refine Finset.sum_congr rfl fun k _ => ?_
    rw [mulf_apply, Cert.HostBroadcast.col_apply nd bc_SN_SNx1 bc_SNx1_SNxD p k, Cert.Layout.shapeCast_col_apply nd hc p]
  · rw [Cert.HostBroadcast.row_apply b bc_SD_S1xD bc_S1xD_SNxD p q, Cert.Layout.shapeCast_row_apply b hr q]

/-- The blockwise dense part at `(p, q)`: the block of `A` scaled by the block of the norm column, rounded to a narrower
    format (the identity here), times the weights into a zero accumulator, plus the bias row spread over the block. -/
theorem block_apply {m : ℕ} (x0 : FVec Ideal ⟨2, ![m, 128]⟩ .f32) (x1 : FVec Ideal ⟨2, ![m, 1]⟩ .f32) (x2 : FVec Ideal SDxD .f32)
    (x3 : FVec Ideal S1xD .f32) (h0 : (⟨2, ![m, 128]⟩ : Shape).ShapeCasts ⟨2, ![m, 128]⟩)
    (h1 : (⟨2, ![m, 1]⟩ : Shape).ShapeCasts ⟨2, ![m, 1]⟩) (hb1 : (⟨2, ![m, 1]⟩ : Shape).Broadcasts ⟨2, ![m, 128]⟩)
    (hlt : FTy.bits .bf16 < FTy.bits .f32) (w : DotDims.WF ⟨2, ![m, 128]⟩ SDxD ⟨2, ![m, 128]⟩ [1] [0] [0] [1] [] [])
    (h3 : S1xD.ShapeCasts S1xD) (hb3 : S1xD.Broadcasts ⟨2, ![m, 128]⟩) (p : Fin m) (q : Fin 128) :
    addf (matmul (⟨[1], [0], [0], [1], [], [], w⟩ : DotDims _ _ _) none
        (truncf .bf16 (mulf (shapeCast ⟨2, ![m, 128]⟩ x0 h0) (broadcastTo ⟨2, ![m, 128]⟩ (shapeCast ⟨2, ![m, 1]⟩ x1 h1) hb1)) hlt)
        (truncf .bf16 x2 hlt) (constant ⟨2, ![m, 128]⟩ .f32 0x00000000#32))
      (broadcastTo ⟨2, ![m, 128]⟩ (shapeCast S1xD x3 h3) hb3) (ix2 p q)
      = denseEntry x0 x1 x2 x3 p q := by
  unfold denseEntry
  rw [addf_apply]
  refine congrArg₂ (· + ·) ?_ ?_
  · refine (Cert.PlainProduct.matmul_nn_apply w none _ _ p q).trans ?_
    refine Finset.sum_congr rfl fun k _ => ?_
    rw [truncf_apply, truncf_apply, mulf_apply, shapeCast_self, shapeCast_self,
      Cert.Layout.broadcastTo_a1_ab_apply x1 hb1 p k]
  · rw [shapeCast_self, Cert.RowsProduct.broadcastTo_1n_an_apply x3 hb3 p q]

/-- The same followed by the maximum with a zero splat. -/
theorem block_relu_apply {m : ℕ} (x0 : FVec Ideal ⟨2, ![m, 128]⟩ .f32) (x1 : FVec Ideal ⟨2, ![m, 1]⟩ .f32) (x2 : FVec Ideal SDxD .f32)
    (x3 : FVec Ideal S1xD .f32) (h0 : (⟨2, ![m, 128]⟩ : Shape).ShapeCasts ⟨2, ![m, 128]⟩)
    (h1 : (⟨2, ![m, 1]⟩ : Shape).ShapeCasts ⟨2, ![m, 1]⟩) (hb1 : (⟨2, ![m, 1]⟩ : Shape).Broadcasts ⟨2, ![m, 128]⟩)
    (hlt : FTy.bits .bf16 < FTy.bits .f32) (w : DotDims.WF ⟨2, ![m, 128]⟩ SDxD ⟨2, ![m, 128]⟩ [1] [0] [0] [1] [] [])
    (h3 : S1xD.ShapeCasts S1xD) (hb3 : S1xD.Broadcasts ⟨2, ![m, 128]⟩) (p : Fin m) (q : Fin 128) :
    maximumf (addf (matmul (⟨[1], [0], [0], [1], [], [], w⟩ : DotDims _ _ _) none
        (truncf .bf16 (mulf (shapeCast ⟨2, ![m, 128]⟩ x0 h0) (broadcastTo ⟨2, ![m, 128]⟩ (shapeCast ⟨2, ![m, 1]⟩ x1 h1) hb1)) hlt)
        (truncf .bf16 x2 hlt) (constant ⟨2, ![m, 128]⟩ .f32 0x00000000#32))
      (broadcastTo ⟨2, ![m, 128]⟩ (shapeCast S1xD x3 h3) hb3))
      (broadcast ⟨2, ![m, 128]⟩ (Scalar.ofBits (F := Ideal) .f32 0x00000000#32)) (ix2 p q)
      = max (denseEntry x0 x1 x2 x3 p q) (Ideal.ofBits .f32 0x00000000#32) := by
  rw [maximumf_apply, block_apply x0 x1 x2 x3 h0 h1 hb1 hlt w h3 hb3 p q]
  rfl

/-- The whole-array maximum with zero at an index. -/
theorem relu_apply (X : FVec Ideal SNxD .f32) (i : SNxD.Idx) : relu X i = max (X i) (Ideal.ofBits .f32 0x00000000#32) := rfl

end Cert.GraphConv

end
-- ==== Proof.Region0.lean ====
/-
  What the first layer's launch leaves in its output array.

  The launch walks 25 grid points; point `t` reads rows `4000 t … 4000 t + 3999` of the aggregated features and of the
  destination-norm column, the whole weight matrix and the bias row, and writes the same rows of the output.  Row
  `4000 t + p` of the output at column `q` is therefore the dense part's entry of the whole arrays at that row,
  followed by the maximum with zero: the block's
  rows are the array's rows, the weights and the bias are read whole, and the norm column and the bias row are the two
  vectors re-laid.  The 25 blocks tile the array, so the output array is the whole-array dense part under that maximum.
-/
import proofs.«120196_j48266842472902_1_alg».proof.Proof.Gen.KernelIdeal.Frame
import proofs.«120196_j48266842472902_1_alg».proof.Proof.Layer

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at `(p, q)` of its block, over any four loaded blocks. -/
theorem stored_apply (x0 : Vec Ideal S4000x128 .f32) (x1 : Vec Ideal S4000x1 .f32) (x2 : Vec Ideal S128x128 .f32)
    (x3 : Vec Ideal S1x128 .f32) (p : Fin 4000) (q : Fin 128) :
    k0_pay1 x0 x1 x2 x3 (ix2 p q) = max (Cert.GraphConv.denseEntry x0 x1 x2 x3 p q) (Ideal.ofBits .f32 0x00000000#32) := by
  unfold k0_pay1
  exact Cert.GraphConv.block_relu_apply x0 x1 x2 x3 _ _ _ _ _ _ _ p q

/-- The printed index maps over the grid: the three row-blocked windows sit at block row `t`, the weights and the bias
    at block zero. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row `p` of the features' block at point `t` is row `4000 t + p` of the array. -/
theorem features_block (c : Dev nD) (t : Fin cfg0.N) (p : Fin 4000) (k : Fin 128) (P : Fin 100000)
    (hP : P.val = t.val * 4000 + p.val) : iblk0 V c 0 t (ix2 p k) = V c main_v25 (ix2 P k) := by
  show V c main_v25 (((cfg0.win 0).blk t).view.emb (ix2 p k)) = _
  refine congrArg _ (funext fun a => Fin.ext ?_)
  obtain ⟨e0, e1, -⟩ := index_maps t
  match a with
  | ⟨0, _⟩ => show win0_0.index t (0 : Fin 2) * 4000 + 1 * p.val = P.val; omega
  | ⟨1, _⟩ => show win0_0.index t (1 : Fin 2) * 128 + 1 * k.val = k.val; omega

/-- Entry `p` of the norm column's block at point `t` is entry `4000 t + p` of the column. -/
theorem norm_block (c : Dev nD) (t : Fin cfg0.N) (p : Fin 4000) (P : Fin 100000)
    (hP : P.val = t.val * 4000 + p.val) : iblk0 V c 1 t (ix2 p (0 : Fin 1)) = V c main_v26 (ix2 P (0 : Fin 1)) := by
  show V c main_v26 (((cfg0.win 1).blk t).view.emb (ix2 p (0 : Fin 1))) = _
  refine congrArg _ (funext fun a => Fin.ext ?_)
  obtain ⟨-, -, e2, e3, -⟩ := index_maps t
  match a with
  | ⟨0, _⟩ => show win0_1.index t (0 : Fin 2) * 4000 + 1 * p.val = P.val; omega
  | ⟨1, _⟩ => show win0_1.index t (1 : Fin 2) * 1 + 1 * 0 = 0; omega

/-- The weights' block is the whole matrix at every point. -/
theorem weights_block (c : Dev nD) (t : Fin cfg0.N) (k q : Fin 128) : iblk0 V c 2 t (ix2 k q) = V c main_arg1 (ix2 k q) := by
  show V c main_arg1 (((cfg0.win 2).blk t).view.emb (ix2 k q)) = _
  refine congrArg _ (funext fun a => Fin.ext ?_)
  obtain ⟨-, -, -, -, e4, e5, -⟩ := index_maps t
  match a with
  | ⟨0, _⟩ => show win0_2.index t (0 : Fin 2) * 128 + 1 * k.val = k.val; omega
  | ⟨1, _⟩ => show win0_2.index t (1 : Fin 2) * 128 + 1 * q.val = q.val; omega

/-- The bias row's block is the whole row at every point. -/
theorem bias_block (c : Dev nD) (t : Fin cfg0.N) (q : Fin 128) :
    iblk0 V c 3 t (ix2 (0 : Fin 1) q) = V c main_v27 (ix2 (0 : Fin 1) q) := by
  show V c main_v27 (((cfg0.win 3).blk t).view.emb (ix2 (0 : Fin 1) q)) = _
  refine congrArg _ (funext fun a => Fin.ext ?_)
  obtain ⟨-, -, -, -, -, -, e6, e7, -⟩ := index_maps t
  match a with
  | ⟨0, _⟩ => show win0_3.index t (0 : Fin 2) * 1 + 1 * 0 = 0; omega
  | ⟨1, _⟩ => show win0_3.index t (1 : Fin 2) * 128 + 1 * q.val = q.val; omega

/-- Entry `(p, q)` of the output's block at point `t` sits at row `4000 t + p` of the output array. -/
theorem output_place (t : Fin cfg0.N) (p : Fin 4000) (q : Fin 128) (P : Fin 100000) (hP : P.val = t.val * 4000 + p.val) :
    ((cfg0.win 4).blk t).view.emb (ix2 p q) = (ix2 P q : S100000x128.Idx) := by
  refine funext fun a => Fin.ext ?_
  obtain ⟨-, -, -, -, -, -, -, -, e8, e9⟩ := index_maps t
  match a with
  | ⟨0, _⟩ => show win0_4.index t (0 : Fin 2) * 4000 + 1 * p.val = P.val; omega
  | ⟨1, _⟩ => show win0_4.index t (1 : Fin 2) * 128 + 1 * q.val = q.val; omega

variable (c : Dev nD) (nd : FVec Ideal Cert.GraphConv.SN .f32) (b : FVec Ideal Cert.GraphConv.SD .f32)
  (hnd : V c main_v26 = shapeCast S100000x1 nd shapeCasts_S100000_S100000x1)
  (hb : V c main_v27 = shapeCast S1x128 b shapeCasts_S128_S1x128)

include hnd hb in
/-- What point `t` writes back is block `t` of the whole-array dense part under the maximum with zero. -/
theorem written_back (t : Fin cfg0.N) :
    (dat0 V c).flushed 4 t = ((cfg0.win 4).blk t).view.read (Elt Ideal) (Cert.GraphConv.relu (Cert.GraphConv.dense (V c main_v25) nd (V c main_arg1) b)) := by
  show (cfg0.win 4).cut (grid0.coords t) ((dat0 V c).after 4 t) = _
  rw [after0_4]
  unfold out0_4
  rw [View.canon_unit_zero offsets_zero]
  simp only [View.ld_unit_zero (S := S4000x128) offsets_zero, View.ld_unit_zero (S := S4000x1) offsets_zero,
    View.ld_unit_zero (S := S128x128) offsets_zero, View.ld_unit_zero (S := S1x128) offsets_zero]
  funext j
  obtain ⟨p, q, rfl⟩ : ∃ (p : Fin 4000) (q : Fin 128), j = ix2 p q := ⟨j 0, j 1, eq_ix2 j⟩
  have ht : t.val < 25 := lt_of_lt_of_eq t.isLt N_0
  have hp : p.val < 4000 := p.isLt
  let P : Fin 100000 := ⟨t.val * 4000 + p.val, by omega⟩
  have hP : P.val = t.val * 4000 + p.val := rfl
  show k0_pay1 (iblk0 V c 0 t) (iblk0 V c 1 t) (iblk0 V c 2 t) (iblk0 V c 3 t) (ix2 p q)
    = (Cert.GraphConv.relu (Cert.GraphConv.dense (V c main_v25) nd (V c main_arg1) b)) (((cfg0.win 4).blk t).view.emb (ix2 p q))
  refine (stored_apply _ _ _ _ p q).trans ?_
  rw [output_place t p q P hP, Cert.GraphConv.relu_apply,
    Cert.GraphConv.dense_apply _ nd _ b shapeCasts_S100000_S100000x1 shapeCasts_S128_S1x128 P q]
  refine congrArg (max · _) ?_
  unfold Cert.GraphConv.denseEntry
  refine congrArg₂ (· + ·) (Finset.sum_congr rfl fun k _ => ?_) ?_
  · rw [features_block V c t p k P hP, norm_block V c t p P hP, weights_block V c t k q, hnd]
  · rw [bias_block V c t q, hb]

/-- An index of the output array is in point `t`'s block iff each coordinate is in the block's range on its axis. -/
theorem mem_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v28).slice (win0_4.rect t)).set ↔ _
  rw [View.set_slice_whole, Rect.mem_set_unit]
  exact Iff.rfl

/-- Row `r` of the output lies in the block of point `r / 4000`. -/
theorem tiled (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 4000 < cfg0.N := lt_of_lt_of_eq (by omega) N_0.symm
  refine ⟨⟨(i 0).val / 4000, hlt⟩, flush0_4 _, ?_⟩
  rw [mem_block]
  obtain ⟨-, -, -, -, -, -, -, -, e8, e9⟩ := index_maps ⟨(i 0).val / 4000, hlt⟩
  have e8' : win0_4.index ⟨(i 0).val / 4000, hlt⟩ (0 : Fin 2) = (i 0).val / 4000 := e8
  intro a
  match a with
  | ⟨0, _⟩ => show win0_4.index ⟨(i 0).val / 4000, hlt⟩ (0 : Fin 2) * 4000 ≤ (i 0).val ∧ (i 0).val < win0_4.index ⟨(i 0).val / 4000, hlt⟩ (0 : Fin 2) * 4000 + 4000; omega
  | ⟨1, _⟩ => show win0_4.index ⟨(i 0).val / 4000, hlt⟩ (1 : Fin 2) * 128 ≤ (i 1).val ∧ (i 1).val < win0_4.index ⟨(i 0).val / 4000, hlt⟩ (1 : Fin 2) * 128 + 128; omega

include hnd hb in
/-- The output array after the launch, from the contents the launch found. -/
theorem output_array : (dat0 V c).arrAt 4 cfg0.N = Cert.GraphConv.relu (Cert.GraphConv.dense (V c main_v25) nd (V c main_arg1) b) :=
  (dat0 V c).arrAt_eq_of_cover 4 _ (fun t _ => written_back V c nd b hnd hb t) tiled

end Cert.KernelIdeal.Layer0

end
-- ==== Proof.Region1.lean ====
/-
  What the second layer's launch leaves in its output array.

  The launch walks 25 grid points; point `t` reads rows `4000 t … 4000 t + 3999` of the aggregated features and of the
  destination-norm column, the whole weight matrix and the bias row, and writes the same rows of the output.  Row
  `4000 t + p` of the output at column `q` is therefore the dense part's entry of the whole arrays at that row: the block's
  rows are the array's rows, the weights and the bias are read whole, and the norm column and the bias row are the two
  vectors re-laid.  The 25 blocks tile the array, so the output array is the whole-array dense part.
-/
import proofs.«120196_j48266842472902_1_alg».proof.Proof.Gen.KernelIdeal.Frame
import proofs.«120196_j48266842472902_1_alg».proof.Proof.Layer

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at `(p, q)` of its block, over any four loaded blocks. -/
theorem stored_apply (x0 : Vec Ideal S4000x128 .f32) (x1 : Vec Ideal S4000x1 .f32) (x2 : Vec Ideal S128x128 .f32)
    (x3 : Vec Ideal S1x128 .f32) (p : Fin 4000) (q : Fin 128) :
    k1_pay1 x0 x1 x2 x3 (ix2 p q) = Cert.GraphConv.denseEntry x0 x1 x2 x3 p q := by
  unfold k1_pay1
  exact Cert.GraphConv.block_apply x0 x1 x2 x3 _ _ _ _ _ _ _ p q

/-- The printed index maps over the grid: the three row-blocked windows sit at block row `t`, the weights and the bias
    at block zero. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of the features' block at point `t` is row `4000 t + p` of the array. -/
theorem features_block (c : Dev nD) (t : Fin cfg1.N) (p : Fin 4000) (k : Fin 128) (P : Fin 100000)
    (hP : P.val = t.val * 4000 + p.val) : iblk1 V c 0 t (ix2 p k) = V c main_v41 (ix2 P k) := by
  show V c main_v41 (((cfg1.win 0).blk t).view.emb (ix2 p k)) = _
  refine congrArg _ (funext fun a => Fin.ext ?_)
  obtain ⟨e0, e1, -⟩ := index_maps t
  match a with
  | ⟨0, _⟩ => show win1_0.index t (0 : Fin 2) * 4000 + 1 * p.val = P.val; omega
  | ⟨1, _⟩ => show win1_0.index t (1 : Fin 2) * 128 + 1 * k.val = k.val; omega

/-- Entry `p` of the norm column's block at point `t` is entry `4000 t + p` of the column. -/
theorem norm_block (c : Dev nD) (t : Fin cfg1.N) (p : Fin 4000) (P : Fin 100000)
    (hP : P.val = t.val * 4000 + p.val) : iblk1 V c 1 t (ix2 p (0 : Fin 1)) = V c main_v42 (ix2 P (0 : Fin 1)) := by
  show V c main_v42 (((cfg1.win 1).blk t).view.emb (ix2 p (0 : Fin 1))) = _
  refine congrArg _ (funext fun a => Fin.ext ?_)
  obtain ⟨-, -, e2, e3, -⟩ := index_maps t
  match a with
  | ⟨0, _⟩ => show win1_1.index t (0 : Fin 2) * 4000 + 1 * p.val = P.val; omega
  | ⟨1, _⟩ => show win1_1.index t (1 : Fin 2) * 1 + 1 * 0 = 0; omega

/-- The weights' block is the whole matrix at every point. -/
theorem weights_block (c : Dev nD) (t : Fin cfg1.N) (k q : Fin 128) : iblk1 V c 2 t (ix2 k q) = V c main_arg3 (ix2 k q) := by
  show V c main_arg3 (((cfg1.win 2).blk t).view.emb (ix2 k q)) = _
  refine congrArg _ (funext fun a => Fin.ext ?_)
  obtain ⟨-, -, -, -, e4, e5, -⟩ := index_maps t
  match a with
  | ⟨0, _⟩ => show win1_2.index t (0 : Fin 2) * 128 + 1 * k.val = k.val; omega
  | ⟨1, _⟩ => show win1_2.index t (1 : Fin 2) * 128 + 1 * q.val = q.val; omega

/-- The bias row's block is the whole row at every point. -/
theorem bias_block (c : Dev nD) (t : Fin cfg1.N) (q : Fin 128) :
    iblk1 V c 3 t (ix2 (0 : Fin 1) q) = V c main_v43 (ix2 (0 : Fin 1) q) := by
  show V c main_v43 (((cfg1.win 3).blk t).view.emb (ix2 (0 : Fin 1) q)) = _
  refine congrArg _ (funext fun a => Fin.ext ?_)
  obtain ⟨-, -, -, -, -, -, e6, e7, -⟩ := index_maps t
  match a with
  | ⟨0, _⟩ => show win1_3.index t (0 : Fin 2) * 1 + 1 * 0 = 0; omega
  | ⟨1, _⟩ => show win1_3.index t (1 : Fin 2) * 128 + 1 * q.val = q.val; omega

/-- Entry `(p, q)` of the output's block at point `t` sits at row `4000 t + p` of the output array. -/
theorem output_place (t : Fin cfg1.N) (p : Fin 4000) (q : Fin 128) (P : Fin 100000) (hP : P.val = t.val * 4000 + p.val) :
    ((cfg1.win 4).blk t).view.emb (ix2 p q) = (ix2 P q : S100000x128.Idx) := by
  refine funext fun a => Fin.ext ?_
  obtain ⟨-, -, -, -, -, -, -, -, e8, e9⟩ := index_maps t
  match a with
  | ⟨0, _⟩ => show win1_4.index t (0 : Fin 2) * 4000 + 1 * p.val = P.val; omega
  | ⟨1, _⟩ => show win1_4.index t (1 : Fin 2) * 128 + 1 * q.val = q.val; omega

variable (c : Dev nD) (nd : FVec Ideal Cert.GraphConv.SN .f32) (b : FVec Ideal Cert.GraphConv.SD .f32)
  (hnd : V c main_v42 = shapeCast S100000x1 nd shapeCasts_S100000_S100000x1)
  (hb : V c main_v43 = shapeCast S1x128 b shapeCasts_S128_S1x128)

include hnd hb in
/-- What point `t` writes back is block `t` of the whole-array dense part. -/
theorem written_back (t : Fin cfg1.N) :
    (dat1 V c).flushed 4 t = ((cfg1.win 4).blk t).view.read (Elt Ideal) (Cert.GraphConv.dense (V c main_v41) nd (V c main_arg3) b) := by
  show (cfg1.win 4).cut (grid1.coords t) ((dat1 V c).after 4 t) = _
  rw [after1_4]
  unfold out1_4
  rw [View.canon_unit_zero offsets_zero]
  simp only [View.ld_unit_zero (S := S4000x128) offsets_zero, View.ld_unit_zero (S := S4000x1) offsets_zero,
    View.ld_unit_zero (S := S128x128) offsets_zero, View.ld_unit_zero (S := S1x128) offsets_zero]
  funext j
  obtain ⟨p, q, rfl⟩ : ∃ (p : Fin 4000) (q : Fin 128), j = ix2 p q := ⟨j 0, j 1, eq_ix2 j⟩
  have ht : t.val < 25 := lt_of_lt_of_eq t.isLt N_1
  have hp : p.val < 4000 := p.isLt
  let P : Fin 100000 := ⟨t.val * 4000 + p.val, by omega⟩
  have hP : P.val = t.val * 4000 + p.val := rfl
  show k1_pay1 (iblk1 V c 0 t) (iblk1 V c 1 t) (iblk1 V c 2 t) (iblk1 V c 3 t) (ix2 p q)
    = (Cert.GraphConv.dense (V c main_v41) nd (V c main_arg3) b) (((cfg1.win 4).blk t).view.emb (ix2 p q))
  refine (stored_apply _ _ _ _ p q).trans ?_
  rw [output_place t p q P hP,
    Cert.GraphConv.dense_apply _ nd _ b shapeCasts_S100000_S100000x1 shapeCasts_S128_S1x128 P q]
  unfold Cert.GraphConv.denseEntry
  refine congrArg₂ (· + ·) (Finset.sum_congr rfl fun k _ => ?_) ?_
  · rw [features_block V c t p k P hP, norm_block V c t p P hP, weights_block V c t k q, hnd]
  · rw [bias_block V c t q, hb]

/-- An index of the output array is in point `t`'s block iff each coordinate is in the block's range on its axis. -/
theorem mem_block (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v44).slice (win1_4.rect t)).set ↔ _
  rw [View.set_slice_whole, Rect.mem_set_unit]
  exact Iff.rfl

/-- Row `r` of the output lies in the block of point `r / 4000`. -/
theorem tiled (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 4000 < cfg1.N := lt_of_lt_of_eq (by omega) N_1.symm
  refine ⟨⟨(i 0).val / 4000, hlt⟩, flush1_4 _, ?_⟩
  rw [mem_block]
  obtain ⟨-, -, -, -, -, -, -, -, e8, e9⟩ := index_maps ⟨(i 0).val / 4000, hlt⟩
  have e8' : win1_4.index ⟨(i 0).val / 4000, hlt⟩ (0 : Fin 2) = (i 0).val / 4000 := e8
  intro a
  match a with
  | ⟨0, _⟩ => show win1_4.index ⟨(i 0).val / 4000, hlt⟩ (0 : Fin 2) * 4000 ≤ (i 0).val ∧ (i 0).val < win1_4.index ⟨(i 0).val / 4000, hlt⟩ (0 : Fin 2) * 4000 + 4000; omega
  | ⟨1, _⟩ => show win1_4.index ⟨(i 0).val / 4000, hlt⟩ (1 : Fin 2) * 128 ≤ (i 1).val ∧ (i 1).val < win1_4.index ⟨(i 0).val / 4000, hlt⟩ (1 : Fin 2) * 128 + 128; omega

include hnd hb in
/-- The output array after the launch, from the contents the launch found. -/
theorem output_array : (dat1 V c).arrAt 4 cfg1.N = Cert.GraphConv.dense (V c main_v41) nd (V c main_arg3) b :=
  (dat1 V c).arrAt_eq_of_cover 4 _ (fun t _ => written_back V c nd b hnd hb t) tiled

end Cert.KernelIdeal.Layer1

end
-- ==== Proof.KernelHost.lean ====
/-
  The contents the two launches find, as whole-array functions of the arguments, for any float values.

  Before the first launch the host computes the two degree norms and the first aggregation, and re-lays the destination
  norm as a column and the first bias as a row; the weights and the index vectors are still the arguments.  Between the
  launches it scales the first layer's output by the source norm, aggregates again, and re-lays the same norm and the
  second bias.  Each buffer is read back through the host operations that precede it.
-/
import proofs.«120196_j48266842472902_1_alg».proof.Proof.Gen.KernelIdeal.Frame
import proofs.«120196_j48266842472902_1_alg».proof.Proof.Layer
import Idealize.ShloMosaic.Lib.StableHlo.Run

set_option maxRecDepth 16384
-- one declaration at a time: each reads a buffer back through every host operation before it
set_option Elab.async false

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## What the first launch finds -/

set_option maxHeartbeats 4000000 in
theorem entry_features : V5 m ρ c main_v25
    = aggregate (F := F) (m ((c.tc : Thread nD τ).loc main_arg0)) (degNorm (F := F) (m ((c.tc : Thread nD τ).loc main_arg5))) (m ((c.tc : Thread nD τ).loc main_arg5)) (m ((c.tc : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_v25) = _
  after_results_simp
  rfl

set_option maxHeartbeats 4000000 in
theorem entry_norm_column : V5 m ρ c main_v26
    = shapeCast S100000x1 (degNorm (F := F) (m ((c.tc : Thread nD τ).loc main_arg6)) : FVec F SN .f32) shapeCasts_S100000_S100000x1 := by
  show StableHlo.after hostOps0_4 (StableHlo.after hostOps0_3 (StableHlo.after hostOps0_2 (StableHlo.after hostOps0_1
    (StableHlo.after hostOps0 (W0 m ρ c))))) (Proc.devRef .tc main_v26) = _
  after_results_simp
  rfl

set_option maxHeartbeats 4000000 in
theorem entry_bias_row : V5 m ρ c main_v27 = shapeCast S1x128 (m ((c.tc : Thread nD τ).loc main_arg2)) shapeCasts_S128_S1x128 := by
  show StableHlo.after hostOps0_4 (StableHlo.after hostOps0_3 (StableHlo.after hostOps0_2 (StableHlo.after hostOps0_1
    (StableHlo.after hostOps0 (W0 m ρ c))))) (Proc.devRef .tc main_v27) = _
  after_results_simp
  rfl

set_option maxHeartbeats 4000000 in
theorem entry_source_norm : V5 m ρ c main_v10 = degNorm (F := F) (m ((c.tc : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_v10) = _
  after_results_simp
  rfl

set_option maxHeartbeats 4000000 in
theorem entry_dest_norm : V5 m ρ c main_v12 = degNorm (F := F) (m ((c.tc : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_v12) = _
  after_results_simp
  rfl

set_option maxHeartbeats 4000000 in
theorem entry_arg1 : V5 m ρ c main_arg1 = (m ((c.tc : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_arg1) = _
  after_results_simp

set_option maxHeartbeats 4000000 in
theorem entry_arg3 : V5 m ρ c main_arg3 = (m ((c.tc : Thread nD τ).loc main_arg3)) := by
  show StableHlo.after hostOps0_4 (StableHlo.after hostOps0_3 (StableHlo.after hostOps0_2 (StableHlo.after hostOps0_1
    (StableHlo.after hostOps0 (W0 m ρ c))))) (Proc.devRef .tc main_arg3) = _
  after_results_simp

set_option maxHeartbeats 4000000 in
theorem entry_arg4 : V5 m ρ c main_arg4 = (m ((c.tc : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_arg4) = _
  after_results_simp

set_option maxHeartbeats 4000000 in
theorem entry_arg5 : V5 m ρ c main_arg5 = (m ((c.tc : Thread nD τ).loc main_arg5)) := by
  show StableHlo.after hostOps0_4 (StableHlo.after hostOps0_3 (StableHlo.after hostOps0_2 (StableHlo.after hostOps0_1
    (StableHlo.after hostOps0 (W0 m ρ c))))) (Proc.devRef .tc main_arg5) = _
  after_results_simp

set_option maxHeartbeats 4000000 in
theorem entry_arg6 : V5 m ρ c main_arg6 = (m ((c.tc : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_arg6) = _
  after_results_simp

/-! ## What the second launch finds -/

theorem mid_features : V7 m ρ c main_v41
    = aggregate (F := F) (W6 m ρ c (Proc.devRef .tc main_v28)) (W6 m ρ c (Proc.devRef .tc main_v10))
        (W6 m ρ c (Proc.devRef .tc main_arg5)) (W6 m ρ c (Proc.devRef .tc main_arg6)) := by
  show StableHlo.after hostOps1 (W6 m ρ c) (Proc.devRef .tc main_v41) = _
  after_results_simp
  rfl

theorem mid_norm_column : V7 m ρ c main_v42
    = shapeCast S100000x1 (W6 m ρ c (Proc.devRef .tc main_v12)) shapeCasts_S100000_S100000x1 := by
  show StableHlo.after hostOps1 (W6 m ρ c) (Proc.devRef .tc main_v42) = _
  after_results_simp
  rfl

theorem mid_bias_row : V7 m ρ c main_v43
    = shapeCast S1x128 (W6 m ρ c (Proc.devRef .tc main_arg4)) shapeCasts_S128_S1x128 := by
  show StableHlo.after hostOps1 (W6 m ρ c) (Proc.devRef .tc main_v43) = _
  after_results_simp
  rfl

theorem mid_weights : V7 m ρ c main_arg3 = W6 m ρ c (Proc.devRef .tc main_arg3) := by
  show StableHlo.after hostOps1 (W6 m ρ c) (Proc.devRef .tc main_arg3) = _
  after_results_simp

/-- A buffer that is none of the first launch's arrays passes through it. -/
theorem passes (b : Ref sig .tc) (hb : ∀ w, Pipeline.arrRef spec0 w ≠ b) :
    W6 m ρ c (Proc.devRef .tc b) = V5 m ρ c b := W6_of_ne m ρ c b hb

end Cert.KernelIdeal.Whole

end
-- ==== Proof.KernelValue.lean ====
/-
  The kernel program's result as a whole-array function of its arguments.

  Each launch's output array is the dense part of what the launch found (the first under the maximum with zero), and what
  each launch found is the host's aggregation and re-laid norms and biases.  Composed, the result buffer holds the
  two-layer network of the arguments.
-/
import proofs.«120196_j48266842472902_1_alg».proof.Proof.Gen.KernelIdeal.Frame
import proofs.«120196_j48266842472902_1_alg».proof.Proof.Layer
import proofs.«120196_j48266842472902_1_alg».proof.Proof.Region0
import proofs.«120196_j48266842472902_1_alg».proof.Proof.Region1
import proofs.«120196_j48266842472902_1_alg».proof.Proof.KernelHost

set_option maxRecDepth 16384

noncomputable section

namespace Cert.KernelIdeal.Whole

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first launch leaves -/

/-- The first layer's output: the dense part of the first aggregation under the maximum with zero. -/
theorem first_output : W6 m ρ c (Proc.devRef .tc main_v28)
    = relu (F := Ideal) (dense (aggregate (m ((c.tc : Thread nD τ).loc main_arg0)) (degNorm (F := Ideal) (m ((c.tc : Thread nD τ).loc main_arg5))) (m ((c.tc : Thread nD τ).loc main_arg5)) (m ((c.tc : Thread nD τ).loc main_arg6)))
        (degNorm (F := Ideal) (m ((c.tc : Thread nD τ).loc main_arg6))) (m ((c.tc : Thread nD τ).loc main_arg1)) (m ((c.tc : Thread nD τ).loc main_arg2))) := by
  refine (W6_arr m ρ c 4).trans ?_
  rw [Cert.KernelIdeal.Layer0.output_array (V5 m ρ) c (degNorm (F := Ideal) (m ((c.tc : Thread nD τ).loc main_arg6))) (m ((c.tc : Thread nD τ).loc main_arg2))
    (entry_norm_column m ρ c) (entry_bias_row m ρ c), entry_features, entry_arg1]

/-! ## The result -/

/-- The result buffer after the run: the network of the arguments as launched. -/
theorem result_eq : W8 m ρ c (Proc.devRef .tc main_v44)
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  refine (W8_arr m ρ c 4).trans ?_
  have hnd : V7 m ρ c main_v42
      = shapeCast S100000x1 (degNorm (F := Ideal) (m ((c.tc : Thread nD τ).loc main_arg6)) : FVec Ideal SN .f32) shapeCasts_S100000_S100000x1 := by
    rw [mid_norm_column, passes m ρ c main_v12 (by decide), entry_dest_norm]
  have hb : V7 m ρ c main_v43 = shapeCast S1x128 (m ((c.tc : Thread nD τ).loc main_arg4)) shapeCasts_S128_S1x128 := by
    rw [mid_bias_row, passes m ρ c main_arg4 (by decide), entry_arg4]
  rw [Cert.KernelIdeal.Layer1.output_array (V7 m ρ) c (degNorm (F := Ideal) (m ((c.tc : Thread nD τ).loc main_arg6))) (m ((c.tc : Thread nD τ).loc main_arg4)) hnd hb,
    mid_features, first_output, passes m ρ c main_v10 (by decide), passes m ρ c main_arg5 (by decide),
    passes m ρ c main_arg6 (by decide), entry_source_norm, entry_arg5, entry_arg6, mid_weights,
    passes m ρ c main_arg3 (by decide), entry_arg3]
  rfl

end Cert.KernelIdeal.Whole

end
-- ==== Proof.RefValue.lean ====
/-
  The reference program's result is the two-layer graph convolution of its arguments.

  Its run ends with the result buffer at the composition of its host operations; that composition, read as written, is
  `network`: the two degree norms, and twice an aggregation over the edges followed by the dense part, the entrywise
  maximum with zero between the two layers.
-/
import proofs.«120196_j48266842472902_1_alg».proof.Proof.Gen.ReferenceIdeal.Run
import proofs.«120196_j48266842472902_1_alg».proof.Proof.Layer

noncomputable section

namespace Cert.ReferenceIdeal.Whole

open Cert.ReferenceIdeal Cert.ReferenceIdeal.Gen Idealize.ShloMosaic Idealize.ShloMosaic.TcCoe Idealize.SL.Sem

variable {F : FTy → Type} [FloatOps F]

set_option maxRecDepth 8192 in
/-- The composed term of the reference's operations is the network of the launch contents of its arguments. -/
theorem result_eq (m : (ℓ : Loc nD τ sig) → Buf (Elt F) ℓ) (c : Dev nD) :
    Cert.ReferenceIdeal.Value.res_main_v53 m c
      = Cert.GraphConv.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v53 Cert.GraphConv.network Cert.GraphConv.dense Cert.GraphConv.aggregate
    Cert.GraphConv.relu Cert.GraphConv.degNorm
  rfl

end Cert.ReferenceIdeal.Whole

end
-- ==== Proof.lean ====
/-
  A two-layer graph convolution kernel against its jnp reference, over the extended reals.

  Both programs compute, on the host, the clamped in- and out-degrees of 100000 nodes from 1600000 edges, their powers
  -1/2, and for each layer the sum over the edges of the source-normalised feature rows into the destination rows.  The
  reference then scales each row by the destination norm, multiplies by the 128 × 128 weights and adds the bias with
  whole-array operations; the kernel program does the same in a launch that walks the rows in 25 blocks of 4000, rounding
  the product's operands to a narrower format, which is the identity on extended reals.  The first layer ends in the
  maximum with zero in both.  Entry by entry the two dense parts are the same sum, so both programs end at `network` of
  their arguments; no law beyond reading the two spellings of that sum is used, and the finiteness precondition is not
  opened.  No operation of the kernel was changed on the way to its idealization, so that claim is trivial.
-/
import proofs.«120196_j48266842472902_1_alg».proof.Defs
import proofs.«120196_j48266842472902_1_alg».proof.Proof.Gen.Kernel
import proofs.«120196_j48266842472902_1_alg».proof.Proof.Gen.Kernel.Skeleton
import proofs.«120196_j48266842472902_1_alg».proof.Proof.Gen.Kernel.Launch
import proofs.«120196_j48266842472902_1_alg».proof.Proof.Gen.Kernel.Points
import proofs.«120196_j48266842472902_1_alg».proof.Proof.Gen.Kernel.Frame
import proofs.«120196_j48266842472902_1_alg».proof.Proof.Gen.KernelIdeal
import proofs.«120196_j48266842472902_1_alg».proof.Proof.Gen.KernelIdeal.Skeleton
import proofs.«120196_j48266842472902_1_alg».proof.Proof.Gen.KernelIdeal.Launch
import proofs.«120196_j48266842472902_1_alg».proof.Proof.Gen.KernelIdeal.Points
import proofs.«120196_j48266842472902_1_alg».proof.Proof.Gen.KernelIdeal.Frame
import proofs.«120196_j48266842472902_1_alg».proof.Proof.Gen.ReferenceIdeal
import proofs.«120196_j48266842472902_1_alg».proof.Proof.Gen.Pre_finite_inputs
import proofs.«120196_j48266842472902_1_alg».proof.Proof.Gen.ReferenceIdeal.Run
import proofs.«120196_j48266842472902_1_alg».proof.Proof.KernelRun
import proofs.«120196_j48266842472902_1_alg».proof.Proof.KernelValue
import proofs.«120196_j48266842472902_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed terminates without a fault and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the seven arguments both programs end with the network of those arguments in their
    result buffers, and with the arguments unchanged. -/
theorem algebraic : Cert.algebraic_KernelIdeal_ReferenceIdeal := by
  intro m ρ m' ρ' _ hagree
  refine ⟨fun c => Cert.GraphConv.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Whole.result_eq m ρ c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
